-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x192x256 : Shape := ⟨4, ![4, 128, 192, 256]⟩
abbrev S_ : Shape := ⟨0, ![]⟩

class Facts : Prop where
  bcast_S_S4x128x192x256 : S_.BroadcastsInDim S4x128x192x256 (![] : Fin 0 → Fin S4x128x192x256.rank)
  reducesTo_S4x128x192x256_S_d0_1_2_3 : S4x128x192x256.ReducesTo [0, 1, 2, 3] S_
  h_S_ : 0 < S_.numel

variable [Facts]

def fn {F : FTy → Type} [FloatOps F] (main_arg0 : FVec F S4x128x192x256 .f32) (main_arg1 : FVec F S4x128x192x256 .f32) : IVec S_ 1 :=
  let main_v0 : FVec F S4x128x192x256 .f32 := Host.absf main_arg0
  let main_cst : FVec F S_ .f32 := constant S_ .f32 0x7F800000#32
  let main_v1 : FVec F S4x128x192x256 .f32 := broadcastInDim S4x128x192x256 ![] bcast_S_S4x128x192x256 main_cst
  let main_v2 : IVec S4x128x192x256 1 := cmpf .olt main_v0 main_v1
  let main_c : IVec S_ 1 := constantI S_ 1 1#1
  let main_v3 : IVec S_ 1 := (fun x v => Host.reduce IntOp.andi x v reducesTo_S4x128x192x256_S_d0_1_2_3 h_S_) main_v2 main_c
  let main_v4 : FVec F S4x128x192x256 .f32 := Host.absf main_arg1
  let main_cst_0 : FVec F S_ .f32 := constant S_ .f32 0x7F800000#32
  let main_v5 : FVec F S4x128x192x256 .f32 := broadcastInDim S4x128x192x256 ![] bcast_S_S4x128x192x256 main_cst_0
  let main_v6 : IVec S4x128x192x256 1 := cmpf .olt main_v4 main_v5
  let main_c_1 : IVec S_ 1 := constantI S_ 1 1#1
  let main_v7 : IVec S_ 1 := (fun x v => Host.reduce IntOp.andi x v reducesTo_S4x128x192x256_S_d0_1_2_3 h_S_) main_v6 main_c_1
  let main_v8 : IVec S_ 1 := andi main_v3 main_v7
  main_v8
-- ==== Kernel.lean ====
abbrev S4x128x192x256 : Shape := ⟨4, ![4, 128, 192, 256]⟩
abbrev S4x192x256 : Shape := ⟨3, ![4, 192, 256]⟩
abbrev S1x128x32x256 : Shape := ⟨4, ![1, 128, 32, 256]⟩
abbrev S1x32x256 : Shape := ⟨3, ![1, 32, 256]⟩
abbrev S128x32x256 : Shape := ⟨3, ![128, 32, 256]⟩
abbrev S32x256 : Shape := ⟨2, ![32, 256]⟩
abbrev S_ : Shape := ⟨0, ![]⟩
abbrev S4x194x258 : Shape := ⟨3, ![4, 194, 258]⟩
abbrev S4x1x192x256 : Shape := ⟨4, ![4, 1, 192, 256]⟩
abbrev S4x9x192x256 : Shape := ⟨4, ![4, 9, 192, 256]⟩

abbrev nBuf : Space → Nat
  | .hbm => 28
  | .vmem => 6
  | .smem => 0
  | _ => 0

abbrev bufTy : (tb : Table) → Fin (tcTables nBuf tb) → BufTy
  | .hbm, ⟨0, _⟩ => ⟨S4x128x192x256, .f32⟩
  | .hbm, ⟨1, _⟩ => ⟨S4x128x192x256, .f32⟩
  | .hbm, ⟨2, _⟩ => ⟨S4x192x256, .f32⟩
  | .hbm, ⟨3, _⟩ => ⟨S_, .i32⟩
  | .hbm, ⟨4, _⟩ => ⟨S_, .f32⟩
  | .hbm, ⟨5, _⟩ => ⟨S4x194x258, .f32⟩
  | .hbm, ⟨6, _⟩ => ⟨S4x192x256, .f32⟩
  | .hbm, ⟨7, _⟩ => ⟨S4x192x256, .f32⟩
  | .hbm, ⟨8, _⟩ => ⟨S4x192x256, .f32⟩
  | .hbm, ⟨9, _⟩ => ⟨S4x192x256, .f32⟩
  | .hbm, ⟨10, _⟩ => ⟨S4x192x256, .f32⟩
  | .hbm, ⟨11, _⟩ => ⟨S4x192x256, .f32⟩
  | .hbm, ⟨12, _⟩ => ⟨S4x192x256, .f32⟩
  | .hbm, ⟨13, _⟩ => ⟨S4x192x256, .f32⟩
  | .hbm, ⟨14, _⟩ => ⟨S4x192x256, .f32⟩
  | .hbm, ⟨15, _⟩ => ⟨S4x1x192x256, .f32⟩
  | .hbm, ⟨16, _⟩ => ⟨S4x1x192x256, .f32⟩
  | .hbm, ⟨17, _⟩ => ⟨S4x1x192x256, .f32⟩
  | .hbm, ⟨18, _⟩ => ⟨S4x1x192x256, .f32⟩
  | .hbm, ⟨19, _⟩ => ⟨S4x1x192x256, .f32⟩
  | .hbm, ⟨20, _⟩ => ⟨S4x1x192x256, .f32⟩
  | .hbm, ⟨21, _⟩ => ⟨S4x1x192x256, .f32⟩
  | .hbm, ⟨22, _⟩ => ⟨S4x1x192x256, .f32⟩
  | .hbm, ⟨23, _⟩ => ⟨S4x1x192x256, .f32⟩
  | .hbm, ⟨24, _⟩ => ⟨S4x9x192x256, .f32⟩
  | .hbm, ⟨25, _⟩ => ⟨S_, .f32⟩
  | .hbm, ⟨26, _⟩ => ⟨S4x9x192x256, .f32⟩
  | .hbm, ⟨27, _⟩ => ⟨S4x9x192x256, .f32⟩
  | .local _ .vmem, ⟨0, _⟩ => ⟨S1x128x32x256, .f32⟩
  | .local _ .vmem, ⟨1, _⟩ => ⟨S1x128x32x256, .f32⟩
  | .local _ .vmem, ⟨2, _⟩ => ⟨S1x128x32x256, .f32⟩
  | .local _ .vmem, ⟨3, _⟩ => ⟨S1x128x32x256, .f32⟩
  | .local _ .vmem, ⟨4, _⟩ => ⟨S1x32x256, .f32⟩
  | .local _ .vmem, ⟨5, _⟩ => ⟨S1x32x256, .f32⟩
  | _, _ => ⟨S4x128x192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x32x256_S1x128x32x256_0_0_0_0 : ∀ a, (![0, 0, 0, 0] : Fin 4 → Nat) a + S1x128x32x256.size a ≤ S1x128x32x256.size a
  h_S1x128x32x256 : 0 < S1x128x32x256.numel
  shapeCasts_S1x128x32x256_S128x32x256 : S1x128x32x256.ShapeCasts S128x32x256
  reduces_S128x32x256_S32x256 : S128x32x256.Reduces [0] S32x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  shapeCasts_S32x256_S1x32x256 : S32x256.ShapeCasts S1x32x256
  pads_S4x192x256_S4x194x258_000_110_110 : S4x192x256.Pads (![0, 1, 1] : Fin 3 → Nat) ![0, 1, 1] ![0, 0, 0] S4x194x258
  h_S_ : 0 < S_.numel
  slices_S4x194x258_S4x192x256_0_0_0 : S4x194x258.Slices ![0, 0, 0] S4x192x256
  slices_S4x194x258_S4x192x256_0_0_1 : S4x194x258.Slices ![0, 0, 1] S4x192x256
  slices_S4x194x258_S4x192x256_0_0_2 : S4x194x258.Slices ![0, 0, 2] S4x192x256
  slices_S4x194x258_S4x192x256_0_1_0 : S4x194x258.Slices ![0, 1, 0] S4x192x256
  slices_S4x194x258_S4x192x256_0_1_1 : S4x194x258.Slices ![0, 1, 1] S4x192x256
  slices_S4x194x258_S4x192x256_0_1_2 : S4x194x258.Slices ![0, 1, 2] S4x192x256
  slices_S4x194x258_S4x192x256_0_2_0 : S4x194x258.Slices ![0, 2, 0] S4x192x256
  slices_S4x194x258_S4x192x256_0_2_1 : S4x194x258.Slices ![0, 2, 1] S4x192x256
  slices_S4x194x258_S4x192x256_0_2_2 : S4x194x258.Slices ![0, 2, 2] S4x192x256
  bcast_S4x192x256_S4x1x192x256_0_2_3 : S4x192x256.BroadcastsInDim S4x1x192x256 (![0, 2, 3] : Fin 3 → Fin S4x1x192x256.rank)
  concatenates_S4x1x192x256_S4x1x192x256_S4x1x192x256_S4x1x192x256_S4x1x192x256_S4x1x192x256_S4x1x192x256_S4x1x192x256_S4x1x192x256_S4x9x192x256_d1 : Shape.Concatenates [S4x1x192x256, S4x1x192x256, S4x1x192x256, S4x1x192x256, S4x1x192x256, S4x1x192x256, S4x1x192x256, S4x1x192x256, S4x1x192x256] S4x9x192x256 1
  bcast_S_S4x9x192x256 : S_.BroadcastsInDim S4x9x192x256 (![] : Fin 0 → Fin S4x9x192x256.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x32x256.size a ≤ S4x128x192x256.size a
  hwx0_0 : ∀ i : grid0.Coords, EltTy.bits .f32 = 32 ∨ (Rect.block (s := S4x128x192x256) S1x128x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x32x256.size a ≤ S4x128x192x256.size a
  hwx0_1 : ∀ i : grid0.Coords, EltTy.bits .f32 = 32 ∨ (Rect.block (s := S4x128x192x256) S1x128x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x256.size a ≤ S4x192x256.size a
  hwx0_2 : ∀ i : grid0.Coords, EltTy.bits .f32 = 32 ∨ (Rect.block (s := S4x192x256) S1x32x256.size (cc0_transform_2 i) (hinb0_2 i)).WholeWords (EltTy.packing .f32)

variable [Facts₀]

abbrev win0_0 : Pipeline.Window sig grid0 :=
  Pipeline.Window.ofSpec (Memref.whole main_arg0) S1x128x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x128x192x256 : Shape := ⟨4, ![4, 128, 192, 256]⟩
abbrev S_ : Shape := ⟨0, ![]⟩
abbrev S4x192x256 : Shape := ⟨3, ![4, 192, 256]⟩
abbrev S4x1x192x256 : Shape := ⟨4, ![4, 1, 192, 256]⟩
abbrev S4x128x194x258 : Shape := ⟨4, ![4, 128, 194, 258]⟩
abbrev S4x9x192x256 : Shape := ⟨4, ![4, 9, 192, 256]⟩

abbrev nBuf : Space → Nat
  | .hbm => 86
  | .vmem => 0
  | .smem => 0
  | _ => 0

abbrev bufTy : (tb : Table) → Fin (tcTables nBuf tb) → BufTy
  | .hbm, ⟨0, _⟩ => ⟨S4x128x192x256, .f32⟩
  | .hbm, ⟨1, _⟩ => ⟨S4x128x192x256, .f32⟩
  | .hbm, ⟨2, _⟩ => ⟨S4x128x192x256, .f32⟩
  | .hbm, ⟨3, _⟩ => ⟨S_, .f32⟩
  | .hbm, ⟨4, _⟩ => ⟨S4x192x256, .f32⟩
  | .hbm, ⟨5, _⟩ => ⟨S4x1x192x256, .f32⟩
  | .hbm, ⟨6, _⟩ => ⟨S4x1x192x256, .f32⟩
  | .hbm, ⟨7, _⟩ => ⟨S_, .f32⟩
  | .hbm, ⟨8, _⟩ => ⟨S4x1x192x256, .f32⟩
  | .hbm, ⟨9, _⟩ => ⟨S4x1x192x256, .f32⟩
  | .hbm, ⟨10, _⟩ => ⟨S4x128x192x256, .f32⟩
  | .hbm, ⟨11, _⟩ => ⟨S4x128x192x256, .f32⟩
  | .hbm, ⟨12, _⟩ => ⟨S4x128x192x256, .f32⟩
  | .hbm, ⟨13, _⟩ => ⟨S_, .f32⟩
  | .hbm, ⟨14, _⟩ => ⟨S4x192x256, .f32⟩
  | .hbm, ⟨15, _⟩ => ⟨S4x1x192x256, .f32⟩
  | .hbm, ⟨16, _⟩ => ⟨S4x1x192x256, .f32⟩
  | .hbm, ⟨17, _⟩ => ⟨S_, .f32⟩
  | .hbm, ⟨18, _⟩ => ⟨S4x1x192x256, .f32⟩
  | .hbm, ⟨19, _⟩ => ⟨S4x1x192x256, .f32⟩
  | .hbm, ⟨20, _⟩ => ⟨S4x128x192x256, .f32⟩
  | .hbm, ⟨21, _⟩ => ⟨S4x128x192x256, .f32⟩
  | .hbm, ⟨22, _⟩ => ⟨S_, .i32⟩
  | .hbm, ⟨23, _⟩ => ⟨S_, .f32⟩
  | .hbm, ⟨24, _⟩ => ⟨S4x128x194x258, .f32⟩
  | .hbm, ⟨25, _⟩ => ⟨S_, .i32⟩
  | .hbm, ⟨26, _⟩ => ⟨S_, .f32⟩
  | .hbm, ⟨27, _⟩ => ⟨S4x128x194x258, .f32⟩
  | .hbm, ⟨28, _⟩ => ⟨S4x128x192x256, .f32⟩
  | .hbm, ⟨29, _⟩ => ⟨S4x128x192x256, .f32⟩
  | .hbm, ⟨30, _⟩ => ⟨S4x128x192x256, .f32⟩
  | .hbm, ⟨31, _⟩ => ⟨S_, .f32⟩
  | .hbm, ⟨32, _⟩ => ⟨S4x192x256, .f32⟩
  | .hbm, ⟨33, _⟩ => ⟨S4x128x192x256, .f32⟩
  | .hbm, ⟨34, _⟩ => ⟨S4x128x192x256, .f32⟩
  | .hbm, ⟨35, _⟩ => ⟨S4x128x192x256, .f32⟩
  | .hbm, ⟨36, _⟩ => ⟨S_, .f32⟩
  | .hbm, ⟨37, _⟩ => ⟨S4x192x256, .f32⟩
  | .hbm, ⟨38, _⟩ => ⟨S4x128x192x256, .f32⟩
  | .hbm, ⟨39, _⟩ => ⟨S4x128x192x256, .f32⟩
  | .hbm, ⟨40, _⟩ => ⟨S4x128x192x256, .f32⟩
  | .hbm, ⟨41, _⟩ => ⟨S_, .f32⟩
  | .hbm, ⟨42, _⟩ => ⟨S4x192x256, .f32⟩
  | .hbm, ⟨43, _⟩ => ⟨S4x128x192x256, .f32⟩
  | .hbm, ⟨44, _⟩ => ⟨S4x128x192x256, .f32⟩
  | .hbm, ⟨45, _⟩ => ⟨S4x128x192x256, .f32⟩
  | .hbm, ⟨46, _⟩ => ⟨S_, .f32⟩
  | .hbm, ⟨47, _⟩ => ⟨S4x192x256, .f32⟩
  | .hbm, ⟨48, _⟩ => ⟨S4x128x192x256, .f32⟩
  | .hbm, ⟨49, _⟩ => ⟨S4x128x192x256, .f32⟩
  | .hbm, ⟨50, _⟩ => ⟨S4x128x192x256, .f32⟩
  | .hbm, ⟨51, _⟩ => ⟨S_, .f32⟩
  | .hbm, ⟨52, _⟩ => ⟨S4x192x256, .f32⟩
  | .hbm, ⟨53, _⟩ => ⟨S4x128x192x256, .f32⟩
  | .hbm, ⟨54, _⟩ => ⟨S4x128x192x256, .f32⟩
  | .hbm, ⟨55, _⟩ => ⟨S4x128x192x256, .f32⟩
  | .hbm, ⟨56, _⟩ => ⟨S_, .f32⟩
  | .hbm, ⟨57, _⟩ => ⟨S4x192x256, .f32⟩
  | .hbm, ⟨58, _⟩ => ⟨S4x128x192x256, .f32⟩
  | .hbm, ⟨59, _⟩ => ⟨S4x128x192x256, .f32⟩
  | .hbm, ⟨60, _⟩ => ⟨S4x128x192x256, .f32⟩
  | .hbm, ⟨61, _⟩ => ⟨S_, .f32⟩
  | .hbm, ⟨62, _⟩ => ⟨S4x192x256, .f32⟩
  | .hbm, ⟨63, _⟩ => ⟨S4x128x192x256, .f32⟩
  | .hbm, ⟨64, _⟩ => ⟨S4x128x192x256, .f32⟩
  | .hbm, ⟨65, _⟩ => ⟨S4x128x192x256, .f32⟩
  | .hbm, ⟨66, _⟩ => ⟨S_, .f32⟩
  | .hbm, ⟨67, _⟩ => ⟨S4x192x256, .f32⟩
  | .hbm, ⟨68, _⟩ => ⟨S4x128x192x256, .f32⟩
  | .hbm, ⟨69, _⟩ => ⟨S4x128x192x256, .f32⟩
  | .hbm, ⟨70, _⟩ => ⟨S4x128x192x256, .f32⟩
  | .hbm, ⟨71, _⟩ => ⟨S_, .f32⟩
  | .hbm, ⟨72, _⟩ => ⟨S4x192x256, .f32⟩
  | .hbm, ⟨73, _⟩ => ⟨S4x1x192x256, .f32⟩
  | .hbm, ⟨74, _⟩ => ⟨S4x1x192x256, .f32⟩
  | .hbm, ⟨75, _⟩ => ⟨S4x1x192x256, .f32⟩
  | .hbm, ⟨76, _⟩ => ⟨S4x1x192x256, .f32⟩
  | .hbm, ⟨77, _⟩ => ⟨S4x1x192x256, .f32⟩
  | .hbm, ⟨78, _⟩ => ⟨S4x1x192x256, .f32⟩
  | .hbm, ⟨79, _⟩ => ⟨S4x1x192x256, .f32⟩
  | .hbm, ⟨80, _⟩ => ⟨S4x1x192x256, .f32⟩
  | .hbm, ⟨81, _⟩ => ⟨S4x1x192x256, .f32⟩
  | .hbm, ⟨82, _⟩ => ⟨S4x9x192x256, .f32⟩
  | .hbm, ⟨83, _⟩ => ⟨S_, .f32⟩
  | .hbm, ⟨84, _⟩ => ⟨S4x9x192x256, .f32⟩
  | .hbm, ⟨85, _⟩ => ⟨S4x9x192x256, .f32⟩
  | _, _ => ⟨S4x128x192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_c_3 : Ref sig .tc := ⟨.hbm, 25, rfl⟩
abbrev main_call1_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_10 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_12 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_13 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]

class Facts₀ : Prop where
  reducesTo_S4x128x192x256_S4x192x256_d1 : S4x128x192x256.ReducesTo [1] S4x192x256
  h_S_ : 0 < S_.numel
  bcast_S4x192x256_S4x1x192x256_0_2_3 : S4x192x256.BroadcastsInDim S4x1x192x256 (![0, 2, 3] : Fin 3 → Fin S4x1x192x256.rank)
  bcast_S_S4x1x192x256 : S_.BroadcastsInDim S4x1x192x256 (![] : Fin 0 → Fin S4x1x192x256.rank)
  bcast_S4x1x192x256_S4x128x192x256_0_1_2_3 : S4x1x192x256.BroadcastsInDim S4x128x192x256 (![0, 1, 2, 3] : Fin 4 → Fin S4x128x192x256.rank)
  pads_S4x128x192x256_S4x128x194x258_000_000_110_110 : S4x128x192x256.Pads (![0, 0, 1, 1] : Fin 4 → Nat) ![0, 0, 1, 1] ![0, 0, 0, 0] S4x128x194x258
  slices_S4x128x194x258_S4x128x192x256_0_0_0_0 : S4x128x194x258.Slices ![0, 0, 0, 0] S4x128x192x256
  slices_S4x128x194x258_S4x128x192x256_0_0_0_1 : S4x128x194x258.Slices ![0, 0, 0, 1] S4x128x192x256
  slices_S4x128x194x258_S4x128x192x256_0_0_0_2 : S4x128x194x258.Slices ![0, 0, 0, 2] S4x128x192x256
  slices_S4x128x194x258_S4x128x192x256_0_0_1_0 : S4x128x194x258.Slices ![0, 0, 1, 0] S4x128x192x256
  slices_S4x128x194x258_S4x128x192x256_0_0_1_1 : S4x128x194x258.Slices ![0, 0, 1, 1] S4x128x192x256
  slices_S4x128x194x258_S4x128x192x256_0_0_1_2 : S4x128x194x258.Slices ![0, 0, 1, 2] S4x128x192x256
  slices_S4x128x194x258_S4x128x192x256_0_0_2_0 : S4x128x194x258.Slices ![0, 0, 2, 0] S4x128x192x256
  slices_S4x128x194x258_S4x128x192x256_0_0_2_1 : S4x128x194x258.Slices ![0, 0, 2, 1] S4x128x192x256
  slices_S4x128x194x258_S4x128x192x256_0_0_2_2 : S4x128x194x258.Slices ![0, 0, 2, 2] S4x128x192x256
  concatenates_S4x1x192x256_S4x1x192x256_S4x1x192x256_S4x1x192x256_S4x1x192x256_S4x1x192x256_S4x1x192x256_S4x1x192x256_S4x1x192x256_S4x9x192x256_d1 : Shape.Concatenates [S4x1x192x256, S4x1x192x256, S4x1x192x256, S4x1x192x256, S4x1x192x256, S4x1x192x256, S4x1x192x256, S4x1x192x256, S4x1x192x256] S4x9x192x256 1
  bcast_S_S4x9x192x256 : S_.BroadcastsInDim S4x9x192x256 (![] : Fin 0 → Fin S4x9x192x256.rank)

variable [Facts₀]

class Facts : Prop extends Facts₀ where

variable [Facts]
-- ==== Proof.KernelFrame.lean ====
/-
  The frame of `Kernel`: the program is one pipelined region followed by host operations.
  The region walks a 4 × 6 grid; at point (b, h) it stages block (b, ·, h, ·) of each argument
  array (all 128 channels of 32 rows) and writes back block (b, h, ·) of the per-pixel map.
  The body reads its two input buffers whole, reads its output buffer (the value is unused)
  and overwrites the output buffer whole with one payload of the two inputs.  After the region
  the host lines (zero-padding, nine shifted slices, their concatenation, the clamp at zero)
  write buffers of their own and never an array the region stages.  Everything is stated for
  any float instance `F`.
-/
import proofs.«120227_j22445499089557_2_alg».proof.Proof.Gen.Kernel.Launch
import proofs.«120227_j22445499089557_2_alg».proof.Proof.Gen.Kernel.Skeleton
import proofs.«120227_j22445499089557_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2]

/-- The buffers as the region finds them: no host line precedes it, so they are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps True.intro True.intro main_chain

/-- The lines after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of a stretch writes an array the region stages: each writes its own result buffer. -/
theorem keeps_of (ops : List (HloOp τ sig (Elt F)))
    (h : ∀ w : Fin 3, ops.Forall fun op => Proc.devRef .tc (Pipeline.arrRef spec0 w) ∉ op.writes) :
    ∀ op ∈ ops, ∀ w, Proc.devRef .tc (Pipeline.arrRef spec0 w) ∉ op.writes :=
  fun op hop w => (List.forall_iff_forall_mem.mp (h w)) op hop

theorem keeps1 (w : Fin 3) : (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.nary_writes, Finset.mem_singleton]
    exact StableHlo.devRef_ne_of_ne (by decide)
theorem keeps1_1 (w : Fin 3) : (hostOps1_1 : List (HloOp τ sig (Elt F))).Forall fun op => Proc.devRef .tc (Pipeline.arrRef spec0 w) ∉ op.writes := by
  fin_cases w <;>
  · simp only [hostOps1_1, List.Forall, StableHlo.nullary_writes, StableHlo.unary_writes, StableHlo.binary_writes, StableHlo.nary_writes, Finset.mem_singleton]
    repeat' apply And.intro
    all_goals exact StableHlo.devRef_ne_of_ne (by decide)
theorem keeps1_2 (w : Fin 3) : (hostOps1_2 : List (HloOp τ sig (Elt F))).Forall fun op => Proc.devRef .tc (Pipeline.arrRef spec0 w) ∉ op.writes := by
  fin_cases w <;>
  · simp only [hostOps1_2, List.Forall, StableHlo.nullary_writes, StableHlo.unary_writes, StableHlo.binary_writes, StableHlo.nary_writes, Finset.mem_singleton]
    repeat' apply And.intro
    all_goals exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl
  · exact keeps_of _ keeps1
  · exact keeps_of _ keeps1_1
  · exact keeps_of _ keeps1_2

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's accesses -/

abbrev rIn : Rect S1x128x32x256 := Rect.unit (s := S1x128x32x256) ![0, 0, 0, 0] S1x128x32x256.size Facts₀.inb_S1x128x32x256_S1x128x32x256_0_0_0_0
abbrev rOut : Rect S1x32x256 := Rect.unit (s := S1x32x256) ![0, 0, 0] S1x32x256.size Facts₀.inb_S1x32x256_S1x32x256_0_0_0

/-- The output window's staging buffer after the body: its one store, of the payload of the two input blocks. -/
def out0_2 (x0 x1 : Vec F S1x128x32x256 .f32) : Vec F S1x32x256 .f32 :=
  View.canon [⟨rOut, k0_pay1 (View.ld x0 rIn) (View.ld x1 rIn)⟩]

/-- The store covers the buffer. -/
theorem cover0_2 (p0 : Vec F S1x32x256 .f32) (y : S1x32x256.Idx) :
    ∃ pc ∈ ([⟨rOut, p0⟩] : List (View.Piece (Elt F) S1x32x256 .f32)), y ∈ pc.1.set :=
  View.cover_of_tiled [⟨rOut, p0⟩] S1x32x256.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords)
    (arg2 : Memref sig .tc .vmem S1x128x32x256 .f32) (harg2 : arg2.IsWhole)
    (arg3 : Memref sig .tc .vmem S1x128x32x256 .f32) (harg3 : arg3.IsWhole)
    (arg4 : Memref sig .tc .vmem S1x32x256 .f32) (harg4 : arg4.IsWhole)
    (x0 x1 : Vec F S1x128x32x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__normdot_kernel i arg2 harg2 arg3 harg3 arg4 harg4) K := by
  simp only [cc0__normdot_kernel_eq_skeleton]; unfold cc0__normdot_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data computes
    and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.KernelIdealFrame.lean ====
/-
  The frame of `KernelIdeal`: the program is one pipelined region followed by host operations.
  The region walks a 4 × 6 grid; at point (b, h) it stages block (b, ·, h, ·) of each argument
  array (all 128 channels of 32 rows) and writes back block (b, h, ·) of the per-pixel map.
  The body reads its two input buffers whole, reads its output buffer (the value is unused)
  and overwrites the output buffer whole with one payload of the two inputs.  After the region
  the host lines (zero-padding, nine shifted slices, their concatenation, the clamp at zero)
  write buffers of their own and never an array the region stages.  Everything is stated for
  any float instance `F`.
-/
import proofs.«120227_j22445499089557_2_alg».proof.Proof.Gen.KernelIdeal.Launch
import proofs.«120227_j22445499089557_2_alg».proof.Proof.Gen.KernelIdeal.Skeleton
import proofs.«120227_j22445499089557_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, stretch by stretch. -/
abbrev tailOps : List (List (HloOp τ sig (Elt F))) := [hostOps1, hostOps1_1, hostOps1_2]

/-- The buffers as the region finds them: no host line precedes it, so they are the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- @main is the region continued by the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps True.intro True.intro main_chain

/-- The lines after the region touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

/-- No line of a stretch writes an array the region stages: each writes its own result buffer. -/
theorem keeps_of (ops : List (HloOp τ sig (Elt F)))
    (h : ∀ w : Fin 3, ops.Forall fun op => Proc.devRef .tc (Pipeline.arrRef spec0 w) ∉ op.writes) :
    ∀ op ∈ ops, ∀ w, Proc.devRef .tc (Pipeline.arrRef spec0 w) ∉ op.writes :=
  fun op hop w => (List.forall_iff_forall_mem.mp (h w)) op hop

theorem keeps1 (w : Fin 3) : (hostOps1 : List (HloOp τ sig (Elt F))).Forall fun op => Proc.devRef .tc (Pipeline.arrRef spec0 w) ∉ op.writes := by
  fin_cases w <;>
  · simp only [hostOps1, List.Forall, StableHlo.nullary_writes, StableHlo.unary_writes, StableHlo.binary_writes, StableHlo.nary_writes, Finset.mem_singleton]
    exact StableHlo.devRef_ne_of_ne (by decide)
theorem keeps1_1 (w : Fin 3) : (hostOps1_1 : List (HloOp τ sig (Elt F))).Forall fun op => Proc.devRef .tc (Pipeline.arrRef spec0 w) ∉ op.writes := by
  fin_cases w <;>
  · simp only [hostOps1_1, List.Forall, StableHlo.nullary_writes, StableHlo.unary_writes, StableHlo.binary_writes, StableHlo.nary_writes, Finset.mem_singleton]
    repeat' apply And.intro
    all_goals exact StableHlo.devRef_ne_of_ne (by decide)
theorem keeps1_2 (w : Fin 3) : (hostOps1_2 : List (HloOp τ sig (Elt F))).Forall fun op => Proc.devRef .tc (Pipeline.arrRef spec0 w) ∉ op.writes := by
  fin_cases w <;>
  · simp only [hostOps1_2, List.Forall, StableHlo.nullary_writes, StableHlo.unary_writes, StableHlo.binary_writes, StableHlo.nary_writes, Finset.mem_singleton]
    repeat' apply And.intro
    all_goals exact StableHlo.devRef_ne_of_ne (by decide)

theorem sfx_keeps : ∀ ops ∈ (tailOps : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl
  · exact keeps_of _ keeps1
  · exact keeps_of _ keeps1_1
  · exact keeps_of _ keeps1_2

/-- The region finds each argument array as launched. -/
theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c)))⟩) h

/-! ## The body's accesses -/

abbrev rIn : Rect S1x128x32x256 := Rect.unit (s := S1x128x32x256) ![0, 0, 0, 0] S1x128x32x256.size Facts₀.inb_S1x128x32x256_S1x128x32x256_0_0_0_0
abbrev rOut : Rect S1x32x256 := Rect.unit (s := S1x32x256) ![0, 0, 0] S1x32x256.size Facts₀.inb_S1x32x256_S1x32x256_0_0_0

/-- The output window's staging buffer after the body: its one store, of the payload of the two input blocks. -/
def out0_2 (x0 x1 : Vec F S1x128x32x256 .f32) : Vec F S1x32x256 .f32 :=
  View.canon [⟨rOut, k0_pay1 (View.ld x0 rIn) (View.ld x1 rIn)⟩]

/-- The store covers the buffer. -/
theorem cover0_2 (p0 : Vec F S1x32x256 .f32) (y : S1x32x256.Idx) :
    ∃ pc ∈ ([⟨rOut, p0⟩] : List (View.Piece (Elt F) S1x32x256 .f32)), y ∈ pc.1.set :=
  View.cover_of_tiled [⟨rOut, p0⟩] S1x32x256.size (by rfl) y

/-! ## The body's triple -/

set_option maxHeartbeats 1000000 in
/-- The body on whole staging memrefs, the inputs' at contents `x0`, `x1` and the output's at anything, runs to the
    continuation holding the inputs' as they were and the output's at `out0_2 x0 x1`. -/
theorem sound_kernel (c : Dev nD) (E : Set ℕ) (i : grid0.Coords)
    (arg2 : Memref sig .tc .vmem S1x128x32x256 .f32) (harg2 : arg2.IsWhole)
    (arg3 : Memref sig .tc .vmem S1x128x32x256 .f32) (harg3 : arg3.IsWhole)
    (arg4 : Memref sig .tc .vmem S1x32x256 .f32) (harg4 : arg4.IsWhole)
    (x0 x1 : Vec F S1x128x32x256 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out0_2 x0 x1)) -∗ K ⟨⟩))
      ⊢ wp frame (wpE (defs₀ (F := F)) Variants.none c none) E (cc0__normdot_kernel i arg2 harg2 arg3 harg3 arg4 harg4) K := by
  simp only [cc0__normdot_kernel_eq_skeleton]; unfold cc0__normdot_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data computes
    and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.LibNormDot.lean ====
/-
  A general law of the extended reals, over any finite index type: for real vectors x, y and a
  real ε > 0, with α = max (√(Σ x²)) ε and β = max (√(Σ y²)) ε,

      Σ_c (x_c / α) · (y_c / β)  =  (Σ_c x_c · y_c) / (α · β).

  Both sides are stated with the operations of the ideal float instance (its quotient, its
  square root, the lattice maximum) and with each sum started from zero, the form in which a
  lane reduction and a host reduction read.  The entries being real is what makes the law
  true: α and β are then positive reals, every quotient is a product with a real reciprocal,
  and the law is distributivity in ℝ.
-/
import Idealize.ShloMosaic.PureOps.Ideal

namespace Cert.LibNormDot

open Idealize.ShloMosaic

/-- The embedding of the reals commutes with finite sums. -/
theorem coe_sum {ι : Type} (s : Finset ι) (f : ι → ℝ) :
    ((∑ c ∈ s, f c : ℝ) : EReal) = ∑ c ∈ s, (f c : EReal) := by
  classical
  induction s using Finset.induction_on with
  | empty => simp
  | insert a s ha ih => rw [Finset.sum_insert ha, Finset.sum_insert ha, EReal.coe_add, ih]

/-- The clamped norm of a real vector is a positive real. -/
theorem clampedNorm_eq {ι : Type} [Fintype ι] (z : ι → ℝ) (e : ℝ) :
    max (Ideal.sqrt (0 + ∑ c, (z c : EReal) * (z c : EReal))) (e : EReal)
      = ((max (Real.sqrt (∑ c, z c * z c)) e : ℝ) : EReal) := by
  have h : (0 : EReal) + ∑ c, (z c : EReal) * (z c : EReal) = ((∑ c, z c * z c : ℝ) : EReal) := by
    rw [zero_add, coe_sum]; simp only [EReal.coe_mul]
  rw [h, Ideal.sqrt_coe, if_neg (not_lt.mpr (Finset.sum_nonneg fun c _ => mul_self_nonneg _))]
  exact (EReal.coe_strictMono.monotone.map_max).symm

/-- The sum of products of the normalized entries is the product sum over the product of the clamped norms. -/
theorem normdot {ι : Type} [Fintype ι] (x y : ι → ℝ) (e : ℝ) (he : 0 < e) :
    (0 : EReal) + ∑ c, Ideal.div (x c : EReal) (max (Ideal.sqrt (0 + ∑ c, (x c : EReal) * (x c : EReal))) (e : EReal))
        * Ideal.div (y c : EReal) (max (Ideal.sqrt (0 + ∑ c, (y c : EReal) * (y c : EReal))) (e : EReal))
    = Ideal.div (0 + ∑ c, (x c : EReal) * (y c : EReal))
        (max (Ideal.sqrt (0 + ∑ c, (x c : EReal) * (x c : EReal))) (e : EReal)
          * max (Ideal.sqrt (0 + ∑ c, (y c : EReal) * (y c : EReal))) (e : EReal)) := by
  rw [clampedNorm_eq x e, clampedNorm_eq y e]
  have hα : 0 < max (Real.sqrt (∑ c, x c * x c)) e := lt_of_lt_of_le he (le_max_right _ _)
  have hβ : 0 < max (Real.sqrt (∑ c, y c * y c)) e := lt_of_lt_of_le he (le_max_right _ _)
  generalize max (Real.sqrt (∑ c, x c * x c)) e = α at hα ⊢
  generalize max (Real.sqrt (∑ c, y c * y c)) e = β at hβ ⊢
  rw [← EReal.coe_mul α β, Ideal.div_coe (mul_pos hα hβ).ne']
  simp only [Ideal.div_coe hα.ne', Ideal.div_coe hβ.ne', zero_add, ← EReal.coe_mul, ← coe_sum]
  refine congrArg _ ?_
  rw [Finset.sum_mul]
  refine Finset.sum_congr rfl fun c _ => ?_
  field_simp

/-- The same law with the sums not started from zero. -/
theorem normdot_plain {ι : Type} [Fintype ι] (x y : ι → ℝ) (e : ℝ) (he : 0 < e) :
    ∑ c, Ideal.div (x c : EReal) (max (Ideal.sqrt (∑ c, (x c : EReal) * (x c : EReal))) (e : EReal))
        * Ideal.div (y c : EReal) (max (Ideal.sqrt (∑ c, (y c : EReal) * (y c : EReal))) (e : EReal))
    = Ideal.div (∑ c, (x c : EReal) * (y c : EReal))
        (max (Ideal.sqrt (∑ c, (x c : EReal) * (x c : EReal))) (e : EReal)
          * max (Ideal.sqrt (∑ c, (y c : EReal) * (y c : EReal))) (e : EReal)) := by
  simpa only [zero_add] using normdot x y e he

end Cert.LibNormDot
-- ==== Proof.Spec.lean ====
/-
  The specification, over literal shapes.  For argument arrays x0, x1 of shape [4, 128, 192, 256]
  (batch, channel, row, column) the per-pixel map is

      D(b, h, w) = (Σ_k x0(b,k,h,w) · x1(b,k,h,w)) / (n0(b,h,w) · n1(b,h,w)),
      n_i(b, h, w) = max (√(Σ_k x_i(b,k,h,w)²)) ε,

  and the channel-normalized arrays are x_i(b,k,h,w) / n_i(b,h,w).  When every entry is real, the
  channel sum of the product of the two normalized arrays at a pixel is D there: the law of
  LibNormDot at the 128 channels of the pixel.
-/
import Idealize.ShloMosaic.PureOps.Ideal
import Idealize.ShloMosaic.PureOps.Ideal.Laws
import Idealize.ShloMosaic.Lib.ValueIdx
import proofs.«120227_j22445499089557_2_alg».proof.Proof.LibNormDot

noncomputable section

namespace Cert.NormDot

open Idealize.ShloMosaic

abbrev SArg : Shape := ⟨4, ![4, 128, 192, 256]⟩
abbrev SMap : Shape := ⟨3, ![4, 192, 256]⟩

/-- Channel `k` of pixel `p = (b, h, w)`: the index (b, k, h, w). -/
def chan (p : SMap.Idx) (k : Fin 128) : SArg.Idx := fun a => match a with
  | ⟨0, _⟩ => ⟨(p 0).val, (p 0).isLt⟩
  | ⟨1, _⟩ => ⟨k.val, k.isLt⟩
  | ⟨2, _⟩ => ⟨(p 1).val, (p 1).isLt⟩
  | ⟨3, _⟩ => ⟨(p 2).val, (p 2).isLt⟩

/-- The pixel (b, h, w) of an index (b, k, h, w). -/
def pix (i : SArg.Idx) : SMap.Idx := fun a => match a with
  | ⟨0, _⟩ => ⟨(i 0).val, (i 0).isLt⟩
  | ⟨1, _⟩ => ⟨(i 2).val, (i 2).isLt⟩
  | ⟨2, _⟩ => ⟨(i 3).val, (i 3).isLt⟩

theorem pix_chan (p : SMap.Idx) (k : Fin 128) : pix (chan p k) = p :=
  funext fun a => Fin.ext (by match a with | ⟨0, _⟩ => rfl | ⟨1, _⟩ => rfl | ⟨2, _⟩ => rfl)

/-- The clamp ε, as the program spells it. -/
def eps : EReal := Ideal.ofBits .f32 0x2B8CBCCC#32

/-- ε is a positive real. -/
theorem eps_real : ∃ e : ℝ, 0 < e ∧ eps = (e : EReal) := by
  refine ⟨(2 ^ 23 + 834764 : ℕ) * (2 : ℝ) ^ ((87 : ℤ) - 127 - 23), by positivity, ?_⟩
  unfold eps
  simp [Ideal.ofBits, Ideal.ieee, -EReal.coe_mul]

/-- The clamped channel norm at a pixel. -/
def cnorm (x : SArg.Idx → EReal) (p : SMap.Idx) : EReal :=
  max (Ideal.sqrt (∑ k : Fin 128, x (chan p k) * x (chan p k))) eps

/-- The per-pixel map. -/
def Dmap (x0 x1 : SArg.Idx → EReal) (p : SMap.Idx) : EReal :=
  Ideal.div (∑ k : Fin 128, x0 (chan p k) * x1 (chan p k)) (cnorm x0 p * cnorm x1 p)

/-- An array normalized over its channels. -/
def nrm (x : SArg.Idx → EReal) (i : SArg.Idx) : EReal := Ideal.div (x i) (cnorm x (pix i))

/-- For real arrays, the channel sum of the product of the normalized arrays is the per-pixel map. -/
theorem sum_nrm_eq (x0 x1 : SArg.Idx → EReal) (h0 : ∀ i, ∃ r : ℝ, x0 i = (r : EReal)) (h1 : ∀ i, ∃ r : ℝ, x1 i = (r : EReal))
    (p : SMap.Idx) : ∑ k : Fin 128, nrm x0 (chan p k) * nrm x1 (chan p k) = Dmap x0 x1 p := by
  choose r0 hr0 using h0
  choose r1 hr1 using h1
  obtain ⟨e, he, hε⟩ := eps_real
  have e0 : x0 = fun i => (r0 i : EReal) := funext hr0
  have e1 : x1 = fun i => (r1 i : EReal) := funext hr1
  subst e0 e1
  unfold nrm Dmap cnorm
  simp only [pix_chan, hε]
  exact Cert.LibNormDot.normdot_plain (fun k => r0 (chan p k)) (fun k => r1 (chan p k)) e he

end Cert.NormDot

end
-- ==== Proof.Payload.lean ====
/-
  The body's payload read at an index, at the ideal instance.  The body views its two
  [1, 128, 32, 256] input blocks as [128, 32, 256], sums x0², x1² and x0·x1 over the 128
  channels, clamps the two square roots at ε, divides the product sum by the product of the
  clamped norms, and stores the [32, 256] result as a [1, 32, 256] block.  At entry (0, r, w)
  that is

      (Σ_k v0(0,k,r,w) · v2(0,k,r,w)) / (max (√Σ_k v0(0,k,r,w)²) ε · max (√Σ_k v2(0,k,r,w)²) ε).
-/
import proofs.«120227_j22445499089557_2_alg».proof.Proof.Gen.KernelIdeal.Skeleton
import proofs.«120227_j22445499089557_2_alg».proof.Proof.Spec
import Idealize.ShloMosaic.Lib.Pipeline.Value
import Idealize.ShloMosaic.Lib.ValueIdx
import Idealize.ShloMosaic.PureOps.Ideal.Laws

noncomputable section

namespace Cert.KernelIdeal.HandValue

open Cert.KernelIdeal Cert.KernelIdeal.Gen Cert.NormDot
open Idealize.ShloMosaic Idealize.ShloMosaic.ValueIdx Idealize.ShloMosaic.View

/-- A sum over the channel axis of a [128, 32, 256] block from the zero word, read at (r, w). -/
theorem chanSum_apply (src : FVec Ideal S128x32x256 .f32) (h : S128x32x256.Reduces [0] S32x256) (hφ : FKind.Formats .f32)
    (hacc : (0x00000000#32 : BitVec 32) = 0x00000000#32) (r : Fin 32) (w : Fin 256) :
    multiReduction .add [0] S32x256 src 0x00000000#32 h hφ hacc (ix2 r w) = ∑ k : Fin 128, src (ix3 k r w) :=
  (Ideal.multiReduction_add_single src 0x00000000#32 h hφ hacc (ix2 r w)).trans
    (Finset.sum_congr rfl fun (k : Fin 128) _ => congrArg src (funext fun a => Fin.ext (by
      match a with | ⟨0, _⟩ => rfl | ⟨1, _⟩ => rfl | ⟨2, _⟩ => rfl)))

/-- The [1, 128, 32, 256] block viewed as [128, 32, 256]: entry (k, r, w) is entry (0, k, r, w). -/
theorem dropUnit_apply (v : FVec Ideal S1x128x32x256 .f32) (h : S1x128x32x256.ShapeCasts S128x32x256)
    (k : Fin 128) (r : Fin 32) (w : Fin 256) :
    shapeCast S128x32x256 v h (ix3 k r w) = v (ix4 (0 : Fin 1) k r w) :=
  (shapeCast_dropUnit_apply ![128, 32, 256] v h (ix3 k r w)).trans (congrArg v (funext fun a => by
    match a with | ⟨0, _⟩ => rfl | ⟨1, _⟩ => rfl | ⟨2, _⟩ => rfl | ⟨3, _⟩ => rfl))

/-- The channel sum of a product of two viewed blocks, read at (r, w). -/
theorem prodSum_apply (a b : FVec Ideal S1x128x32x256 .f32) (hc : S1x128x32x256.ShapeCasts S128x32x256)
    (h : S128x32x256.Reduces [0] S32x256) (hφ : FKind.Formats .f32)
    (hacc : (0x00000000#32 : BitVec 32) = 0x00000000#32) (r : Fin 32) (w : Fin 256) :
    multiReduction .add [0] S32x256 (mulf (shapeCast S128x32x256 a hc) (shapeCast S128x32x256 b hc)) 0x00000000#32 h hφ hacc (ix2 r w)
      = ∑ k : Fin 128, a (ix4 (0 : Fin 1) k r w) * b (ix4 (0 : Fin 1) k r w) :=
  (chanSum_apply _ h hφ hacc r w).trans (Finset.sum_congr rfl fun k _ => by
    show shapeCast S128x32x256 a hc (ix3 k r w) * shapeCast S128x32x256 b hc (ix3 k r w) = _
    rw [dropUnit_apply, dropUnit_apply])

/-- The payload at entry (0, r, w). -/
theorem pay_apply (v0 v2 : FVec Ideal S1x128x32x256 .f32) (r : Fin 32) (w : Fin 256) :
    k0_pay1 (F := Ideal) v0 v2 (ix3 (0 : Fin 1) r w)
      = Ideal.div (∑ k : Fin 128, v0 (ix4 (0 : Fin 1) k r w) * v2 (ix4 (0 : Fin 1) k r w))
          (max (Ideal.sqrt (∑ k : Fin 128, v0 (ix4 (0 : Fin 1) k r w) * v0 (ix4 (0 : Fin 1) k r w))) eps
            * max (Ideal.sqrt (∑ k : Fin 128, v2 (ix4 (0 : Fin 1) k r w) * v2 (ix4 (0 : Fin 1) k r w))) eps) := by
  unfold k0_pay1
  refine (shapeCast_addUnit_apply ![32, 256] _ _ (ix3 (0 : Fin 1) r w)).trans ?_
  have hidx : (fun a : Fin 2 => (ix3 (0 : Fin 1) r w) a.succ) = ix2 r w :=
    funext fun a => by match a with | ⟨0, _⟩ => rfl | ⟨1, _⟩ => rfl
  have s00 := prodSum_apply v0 v0 Facts₀.shapeCasts_S1x128x32x256_S128x32x256 Facts₀.reduces_S128x32x256_S32x256 (.inl rfl) rfl r w
  have s22 := prodSum_apply v2 v2 Facts₀.shapeCasts_S1x128x32x256_S128x32x256 Facts₀.reduces_S128x32x256_S32x256 (.inl rfl) rfl r w
  have s02 := prodSum_apply v0 v2 Facts₀.shapeCasts_S1x128x32x256_S128x32x256 Facts₀.reduces_S128x32x256_S32x256 (.inl rfl) rfl r w
  rw [hidx]
  exact congr (congrArg Ideal.div s02)
    (congr (congrArg HMul.hMul (congrArg (fun z => max (Ideal.sqrt z) eps) s00)) (congrArg (fun z => max (Ideal.sqrt z) eps) s22))

end Cert.KernelIdeal.HandValue

end
-- ==== Proof.KernelValue.lean ====
/-
  The kernel's per-pixel map as one array.  Grid point (b, h) writes back block (b, h, ·) of the
  output: 32 rows of all 256 columns of batch entry b.  Its input blocks are block (b, ·, h, ·)
  of each argument: all 128 channels of the same 32 rows.  So entry (0, r, w) of the block
  written back is the per-pixel map D of the two argument arrays at pixel (b, 32·h + r, w), and
  since the 24 blocks tile the [4, 192, 256] array, the array ends holding D everywhere.
-/
import proofs.«120227_j22445499089557_2_alg».proof.Proof.KernelIdealFrame
import proofs.«120227_j22445499089557_2_alg».proof.Proof.Payload

set_option maxRecDepth 16384

noncomputable section

namespace Cert.KernelIdeal.HandValue

open Cert.KernelIdeal Cert.KernelIdeal.Gen Cert.KernelIdeal.Hand Cert.NormDot
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: each input block sits at the output block's batch entry and row
    block, at channel block 0 and column block 0; the output's column block is 0. -/
theorem idx_facts : ∀ t : Fin cfg0.N,
    win0_0.index t (0 : Fin 4) = win0_2.index t (0 : Fin 3) ∧ win0_0.index t (1 : Fin 4) = 0
    ∧ win0_0.index t (2 : Fin 4) = win0_2.index t (1 : Fin 3) ∧ win0_0.index t (3 : Fin 4) = 0
    ∧ win0_1.index t (0 : Fin 4) = win0_2.index t (0 : Fin 3) ∧ win0_1.index t (1 : Fin 4) = 0
    ∧ win0_1.index t (2 : Fin 4) = win0_2.index t (1 : Fin 3) ∧ win0_1.index t (3 : Fin 4) = 0
    ∧ win0_2.index t (0 : Fin 3) ≤ 3 ∧ win0_2.index t (1 : Fin 3) ≤ 5 ∧ win0_2.index t (2 : Fin 3) = 0 :=
  (by decide +kernel : ∀ t : Fin grid0.N, _)

/-- Every (batch entry, row block) is some point's. -/
theorem idx_onto : ∀ (q0 : Fin 4) (q1 : Fin 6), ∃ t : Fin cfg0.N, win0_2.index t = ![q0.val, q1.val, 0] :=
  (by decide +kernel : ∀ (q0 : Fin 4) (q1 : Fin 6), ∃ t : Fin grid0.N, win0_2.index t = ![q0.val, q1.val, 0])

/-- What point `t` writes back is block `t` of the per-pixel map of the argument arrays. -/
theorem flushed_eq (c : Dev nD) (t : Fin cfg0.N) :
    (dats m 0 c).flushed 2 t
      = ((cfg0.win 2).blk t).view.read (Elt Ideal) (Dmap (V m c main_arg0) (V m c main_arg1)) := by
  show (cfg0.win 2).cut (grid0.coords t) ((dats m 0 c).after 2 t) = _
  rw [after0_2]
  unfold out0_2
  rw [View.canon_unit_zero hz3]
  simp only [View.ld_unit_zero (S := S1x128x32x256) hz4]
  obtain ⟨e0, e1, e2, e3, f0, f1, f2, f3, b0, b1, b2⟩ := idx_facts t
  funext j
  obtain ⟨u, r, w, rfl⟩ : ∃ (u : Fin 1) (r : Fin 32) (w : Fin 256), j = ix3 u r w := ⟨j 0, j 1, j 2, eq_ix3 j⟩
  obtain rfl : u = 0 := Subsingleton.elim _ _
  refine (pay_apply (iblk m c 0 t) (iblk m c 1 t) r w).trans ?_
  show _ = Dmap (V m c main_arg0) (V m c main_arg1) (((cfg0.win 2).blk t).view.emb (ix3 (0 : Fin 1) r w))
  have h0 : ∀ k : Fin 128, iblk m c 0 t (ix4 (0 : Fin 1) k r w)
      = V m c main_arg0 (chan (((cfg0.win 2).blk t).view.emb (ix3 (0 : Fin 1) r w)) k) := fun k => by
    show V m c main_arg0 (((cfg0.win 0).blk t).view.emb (ix4 (0 : Fin 1) k r w)) = _
    refine congrArg _ (funext fun a => Fin.ext ?_)
    match a with
    | ⟨0, _⟩ => show win0_0.index t (0 : Fin 4) * 1 + 1 * 0 = win0_2.index t (0 : Fin 3) * 1 + 1 * 0; omega
    | ⟨1, _⟩ => show win0_0.index t (1 : Fin 4) * 128 + 1 * k.val = k.val; omega
    | ⟨2, _⟩ => show win0_0.index t (2 : Fin 4) * 32 + 1 * r.val = win0_2.index t (1 : Fin 3) * 32 + 1 * r.val; omega
    | ⟨3, _⟩ => show win0_0.index t (3 : Fin 4) * 256 + 1 * w.val = win0_2.index t (2 : Fin 3) * 256 + 1 * w.val; omega
  have h1 : ∀ k : Fin 128, iblk m c 1 t (ix4 (0 : Fin 1) k r w)
      = V m c main_arg1 (chan (((cfg0.win 2).blk t).view.emb (ix3 (0 : Fin 1) r w)) k) := fun k => by
    show V m c main_arg1 (((cfg0.win 1).blk t).view.emb (ix4 (0 : Fin 1) k r w)) = _
    refine congrArg _ (funext fun a => Fin.ext ?_)
    match a with
    | ⟨0, _⟩ => show win0_1.index t (0 : Fin 4) * 1 + 1 * 0 = win0_2.index t (0 : Fin 3) * 1 + 1 * 0; omega
    | ⟨1, _⟩ => show win0_1.index t (1 : Fin 4) * 128 + 1 * k.val = k.val; omega
    | ⟨2, _⟩ => show win0_1.index t (2 : Fin 4) * 32 + 1 * r.val = win0_2.index t (1 : Fin 3) * 32 + 1 * r.val; omega
    | ⟨3, _⟩ => show win0_1.index t (3 : Fin 4) * 256 + 1 * w.val = win0_2.index t (2 : Fin 3) * 256 + 1 * w.val; omega
  unfold Dmap cnorm
  simp only [h0, h1]

/-- An index of the array is in point `t`'s block iff each coordinate is in the block's range on its axis. -/
theorem mem_blk (t : Fin cfg0.N) (i : S4x192x256.Idx) :
    i ∈ ((cfg0.win 2).blk t).view.set ↔ ∀ a : Fin 3, win0_2.index t a * S1x32x256.size a ≤ (i a).val
      ∧ (i a).val < win0_2.index t a * S1x32x256.size a + S1x32x256.size a := by
  show i ∈ ((View.whole main_v0).slice (win0_2.rect t)).set ↔ _
  rw [View.set_slice_whole, Rect.mem_set_unit]
  exact Iff.rfl

/-- The blocks cover the array: pixel (b, h, w) is in the block of the point with batch entry b and row block h / 32. -/
theorem cover (i : S4x192x256.Idx) :
    ∃ t : Fin cfg0.N, (cfg0.win 2).flush t = true ∧ i ∈ ((cfg0.win 2).blk t).view.set := by
  have hi0 : (i 0).val < 4 := (i 0).isLt
  have hi1 : (i 1).val < 192 := (i 1).isLt
  have hi2 : (i 2).val < 256 := (i 2).isLt
  obtain ⟨t, ht⟩ := idx_onto ⟨(i 0).val, hi0⟩ ⟨(i 1).val / 32, by omega⟩
  have q0 : win0_2.index t (0 : Fin 3) = (i 0).val := congrFun ht 0
  have q1 : win0_2.index t (1 : Fin 3) = (i 1).val / 32 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 32 ≤ (i 1).val ∧ (i 1).val < win0_2.index t (1 : Fin 3) * 32 + 32; omega
  | ⟨2, _⟩ => show win0_2.index t (2 : Fin 3) * 256 ≤ (i 2).val ∧ (i 2).val < win0_2.index t (2 : Fin 3) * 256 + 256; omega

/-- The output array after the region is the per-pixel map of the argument arrays. -/
theorem final (c : Dev nD) :
    (dats m 0 c).arrAt 2 cfg0.N = Dmap (m ((c : Thread nD τ).loc main_arg0)) (m ((c : Thread nD τ).loc main_arg1)) :=
  (dats m 0 c).arrAt_eq_of_cover 2 (Dmap (V m c main_arg0) (V m c main_arg1)) (fun t _ => flushed_eq m c t) cover

end Cert.KernelIdeal.HandValue

end
-- ==== Proof.Tail.lean ====
/-
  What both programs do with nine [4, 192, 256] maps X₀ … X₈: view each as [4, 1, 192, 256],
  join them along axis 1 into [4, 9, 192, 256], and clamp every entry below at zero.  And the
  shifted views themselves: a [4, 192, 256] map D padded by one entry of the padding value
  (the integer 0 converted to a float) on each side of its last two axes, then cut at offset
  (oi, oj) back to [4, 192, 256]; at (b, h, w) that is D(b, h + oi − 1, w + oj − 1) where that
  index exists and the padding value elsewhere.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost
import proofs.«120227_j22445499089557_2_alg».proof.Proof.Spec

noncomputable section

namespace Cert.NormDot

open Idealize.ShloMosaic Idealize.ShloMosaic.ValueIdx

abbrev SPad : Shape := ⟨3, ![4, 194, 258]⟩
abbrev SOne : Shape := ⟨4, ![4, 1, 192, 256]⟩
abbrev SOut : Shape := ⟨4, ![4, 9, 192, 256]⟩
abbrev S0 : Shape := ⟨0, ![]⟩

/-- The padding value: the integer 0 converted to a float. -/
def zpad : FVec Ideal S0 .f32 := sitofp (F := Ideal) .f32 (constantI S0 32 0#32)

theorem zpad_apply (i : S0.Idx) : zpad i = 0 := by
  show ((((0#32 : BitVec 32).toInt : ℤ) : ℝ) : EReal) = 0
  simp

/-- The nine maps as [4, 1, 192, 256], joined along axis 1, clamped below at zero. -/
def tail9 (hb : SMap.BroadcastsInDim SOne (![0, 2, 3] : Fin 3 → Fin SOne.rank))
    (hc : Shape.Concatenates [SOne, SOne, SOne, SOne, SOne, SOne, SOne, SOne, SOne] SOut 1)
    (hb0 : S0.BroadcastsInDim SOut (![] : Fin 0 → Fin SOut.rank))
    (X0 X1 X2 X3 X4 X5 X6 X7 X8 : FVec Ideal SMap .f32) : FVec Ideal SOut .f32 :=
  maximumf (F := Ideal)
    (concatenate SOut 1 [⟨SOne, broadcastInDim SOne ![0, 2, 3] hb X0⟩, ⟨SOne, broadcastInDim SOne ![0, 2, 3] hb X1⟩,
      ⟨SOne, broadcastInDim SOne ![0, 2, 3] hb X2⟩, ⟨SOne, broadcastInDim SOne ![0, 2, 3] hb X3⟩,
      ⟨SOne, broadcastInDim SOne ![0, 2, 3] hb X4⟩, ⟨SOne, broadcastInDim SOne ![0, 2, 3] hb X5⟩,
      ⟨SOne, broadcastInDim SOne ![0, 2, 3] hb X6⟩, ⟨SOne, broadcastInDim SOne ![0, 2, 3] hb X7⟩,
      ⟨SOne, broadcastInDim SOne ![0, 2, 3] hb X8⟩] hc)
    (broadcastInDim SOut ![] hb0 (constant (F := Ideal) S0 .f32 0x00000000#32))

/-- A [4, 192, 256] map padded by one entry on each side of its last two axes and cut at offset (oi, oj). -/
def shiftD (oi oj : Nat) (hp : SMap.Pads (![0, 1, 1] : Fin 3 → Nat) ![0, 1, 1] ![0, 0, 0] SPad) (hu : 0 < S0.numel)
    (hs : SPad.Slices ![0, oi, oj] SMap) (z : FVec Ideal S0 .f32) (D : FVec Ideal SMap .f32) : FVec Ideal SMap .f32 :=
  extractStridedSlice SMap ![0, oi, oj] (pad SPad ![0, 1, 1] ![0, 1, 1] ![0, 0, 0] D z hp hu) hs

/-- The shifted view at (b, h, w), inside the map. -/
theorem shiftD_inside (oi oj : Nat) (hp) (hu) (hs : SPad.Slices ![0, oi, oj] SMap) (z : FVec Ideal S0 .f32) (D : FVec Ideal SMap .f32)
    (b : Fin 4) (h : Fin 192) (w : Fin 256) (h' : Fin 192) (w' : Fin 256)
    (eh : h.val + oi = h'.val + 1) (ew : w.val + oj = w'.val + 1) :
    shiftD oi oj hp hu hs z D (ix3 b h w) = D (ix3 b h' w') := by
  unfold shiftD
  refine (extractStridedSlice_apply ![0, oi, oj] _ hs (ix3 b h w)
    (ix3 b (⟨h.val + oi, by omega⟩ : Fin 194) (⟨w.val + oj, by omega⟩ : Fin 258)) (fun a => by
      match a with
      | ⟨0, _⟩ => show b.val = 0 + b.val; omega
      | ⟨1, _⟩ => show h.val + oi = oi + h.val; omega
      | ⟨2, _⟩ => show w.val + oj = oj + w.val; omega)).trans ?_
  exact pad_apply_of_inside _ _ _ D z hp hu _ (ix3 b h' w') (fun a => by
    match a with
    | ⟨0, _⟩ => show b.val = 0 + b.val * (0 + 1); omega
    | ⟨1, _⟩ => show h.val + oi = 1 + h'.val * (0 + 1); omega
    | ⟨2, _⟩ => show w.val + oj = 1 + w'.val * (0 + 1); omega)

/-- The shifted view at (b, h, w), in the padding. -/
theorem shiftD_outside (oi oj : Nat) (hoi : oi ≤ 2) (hoj : oj ≤ 2) (hp) (hu) (hs : SPad.Slices ![0, oi, oj] SMap)
    (z : FVec Ideal S0 .f32) (D : FVec Ideal SMap .f32)
    (b : Fin 4) (h : Fin 192) (w : Fin 256)
    (hout : h.val + oi = 0 ∨ 193 ≤ h.val + oi ∨ w.val + oj = 0 ∨ 257 ≤ w.val + oj) :
    shiftD oi oj hp hu hs z D (ix3 b h w) = z (Shape.Idx.first hu) := by
  unfold shiftD
  refine (extractStridedSlice_apply ![0, oi, oj] _ hs (ix3 b h w)
    (ix3 b (⟨h.val + oi, by omega⟩ : Fin 194) (⟨w.val + oj, by omega⟩ : Fin 258)) (fun a => by
      match a with
      | ⟨0, _⟩ => show b.val = 0 + b.val; omega
      | ⟨1, _⟩ => show h.val + oi = oi + h.val; omega
      | ⟨2, _⟩ => show w.val + oj = oj + w.val; omega)).trans ?_
  have hh : h.val < 192 := h.isLt
  have hw : w.val < 256 := w.isLt
  by_cases hrow : h.val + oi = 0 ∨ 193 ≤ h.val + oi
  · exact pad_apply_of_not_inside _ _ _ D z hp hu _ (1 : Fin 3) (by
      show ¬(1 ≤ h.val + oi ∧ (h.val + oi - 1) % (0 + 1) = 0 ∧ (h.val + oi - 1) / (0 + 1) < 192)
      omega)
  · exact pad_apply_of_not_inside _ _ _ D z hp hu _ (2 : Fin 3) (by
      show ¬(1 ≤ w.val + oj ∧ (w.val + oj - 1) % (0 + 1) = 0 ∧ (w.val + oj - 1) / (0 + 1) < 256)
      omega)

end Cert.NormDot

end
-- ==== Proof.KernelTail.lean ====
/-
  The idealized kernel's run, read to its result.  After the region the host lines pad the
  per-pixel map by one zero on each side of its last two axes, cut the nine windows at offsets
  (oi, oj) ∈ {0,1,2}², view each as [4, 1, 192, 256], join them along axis 1 and clamp at zero.
  Each line writes a buffer of its own, so the result buffer holds that composition applied to
  the region's output array, which is the per-pixel map of the arguments.
-/
import proofs.«120227_j22445499089557_2_alg».proof.Proof.KernelValue
import proofs.«120227_j22445499089557_2_alg».proof.Proof.Tail
import Idealize.ShloMosaic.Lib.StableHlo.Run

set_option maxRecDepth 16384

noncomputable section

namespace Cert.KernelIdeal.HandValue

open Cert.KernelIdeal Cert.KernelIdeal.Gen Cert.KernelIdeal.Hand Cert.NormDot
open Idealize.ShloMosaic Idealize.ShloMosaic.TcCoe Idealize.ShloMosaic.ValueIdx Idealize.ShloMosaic.StableHlo
open Idealize.SL Idealize.SL.Sem
open Idealize.ShloMosaic.Pipeline (Dat Cfg Window)

/-- The host lines after the region, as a function of the region's output array. -/
def tailOf (D : FVec Ideal S4x192x256 .f32) : FVec Ideal S4x9x192x256 .f32 :=
  tail9 Facts₀.bcast_S4x192x256_S4x1x192x256_0_2_3
    Facts₀.concatenates_S4x1x192x256_S4x1x192x256_S4x1x192x256_S4x1x192x256_S4x1x192x256_S4x1x192x256_S4x1x192x256_S4x1x192x256_S4x1x192x256_S4x9x192x256_d1
    Facts₀.bcast_S_S4x9x192x256
      (shiftD 0 0 Facts₀.pads_S4x192x256_S4x194x258_000_110_110 Facts₀.h_S_ Facts₀.slices_S4x194x258_S4x192x256_0_0_0 zpad D)
      (shiftD 0 1 Facts₀.pads_S4x192x256_S4x194x258_000_110_110 Facts₀.h_S_ Facts₀.slices_S4x194x258_S4x192x256_0_0_1 zpad D)
      (shiftD 0 2 Facts₀.pads_S4x192x256_S4x194x258_000_110_110 Facts₀.h_S_ Facts₀.slices_S4x194x258_S4x192x256_0_0_2 zpad D)
      (shiftD 1 0 Facts₀.pads_S4x192x256_S4x194x258_000_110_110 Facts₀.h_S_ Facts₀.slices_S4x194x258_S4x192x256_0_1_0 zpad D)
      (shiftD 1 1 Facts₀.pads_S4x192x256_S4x194x258_000_110_110 Facts₀.h_S_ Facts₀.slices_S4x194x258_S4x192x256_0_1_1 zpad D)
      (shiftD 1 2 Facts₀.pads_S4x192x256_S4x194x258_000_110_110 Facts₀.h_S_ Facts₀.slices_S4x194x258_S4x192x256_0_1_2 zpad D)
      (shiftD 2 0 Facts₀.pads_S4x192x256_S4x194x258_000_110_110 Facts₀.h_S_ Facts₀.slices_S4x194x258_S4x192x256_0_2_0 zpad D)
      (shiftD 2 1 Facts₀.pads_S4x192x256_S4x194x258_000_110_110 Facts₀.h_S_ Facts₀.slices_S4x194x258_S4x192x256_0_2_1 zpad D)
      (shiftD 2 2 Facts₀.pads_S4x192x256_S4x194x258_000_110_110 Facts₀.h_S_ Facts₀.slices_S4x194x258_S4x192x256_0_2_2 zpad D)

set_option maxHeartbeats 4000000 in
/-- Whatever the buffers hold when the host lines start, the result buffer ends at `tailOf` of the region's output array. -/
theorem tail_after (W : Valuation τ sig (Elt Ideal)) :
    StableHlo.after (List.flatten (tailOps (F := Ideal))) W (Proc.devRef .tc main_v22)
      = tailOf (W (Proc.devRef .tc main_v0)) := by
  simp only [tailOps, hostOps1, hostOps1_1, hostOps1_2, List.flatten_cons, List.flatten_nil, List.append_nil,
    List.cons_append, List.nil_append]
  after_results_simp <;> rfl

variable (m : (ℓ : Loc nD τ sig) → Buf (Elt Ideal) ℓ) (ρ : Dev nD → PrngReg)

/-- The result buffer after the whole program. -/
theorem tail_eq (c : Dev nD) :
    Pipeline.afterTail₀ cfgs (dats m) 0 (V0 m) tailOps c main_v22
      = tailOf (Dmap (m ((c : Thread nD τ).loc main_arg0)) (m ((c : Thread nD τ).loc main_arg1))) := by
  unfold Pipeline.afterTail₀
  refine (tail_after _).trans (congrArg tailOf ?_)
  exact (Pipeline.withArrays_arr spec0 launch0.win.arr_inj c _ _ 2).trans (final m c)

/-- Every weakly fair execution of the idealized kernel terminates with the result at `tailOf` of the per-pixel map of the
    arguments, the arguments unchanged. -/
theorem run : θ_run defs (onTc (τ := τ) (main (F := Ideal))) ⟨m, fun _ => 0, ρ⟩ (fun r => ∀ c : Dev nD,
      r.2.mem ((c.tc : Thread nD τ).loc main_v22)
        = tailOf (Dmap (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v22 (Pipeline.mem_restRefs_of main_v22 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.HandValue

end
-- ==== Proof.RefShift.lean ====
/-
  One shifted window of the reference, for any offset (oi, oj) with oi, oj ≤ 2.  The reference
  pads two [4, 128, 192, 256] arrays N0, N1 by one entry of the padding value on each side of
  their last two axes, cuts both at offset (oi, oj), multiplies entry by entry and sums over the
  128 channels from a zero initial value.  If at every pixel the channel sum of N0 · N1 is D, the
  result is the [4, 192, 256] map D padded and cut the same way: inside, both read the pixel
  (b, h + oi − 1, w + oj − 1); in the padding every product is 0 · 0 and the sum from zero is
  the padding value 0.
-/
import proofs.«120227_j22445499089557_2_alg».proof.Proof.Tail

noncomputable section

namespace Cert.NormDot

open Idealize.ShloMosaic Idealize.ShloMosaic.ValueIdx

abbrev SPad4 : Shape := ⟨4, ![4, 128, 194, 258]⟩

/-- The host's sum over the channel axis from an initial value, read at a pixel. -/
theorem hostChanSum_apply (y : FVec Ideal SArg .f32) (c0 : FVec Ideal S0 .f32) (hred : SArg.ReducesTo [1] SMap)
    (hu : 0 < S0.numel) (p : SMap.Idx) :
    Host.reduceAdd (F := Ideal) y c0 hred hu p = c0 (Shape.Idx.first hu) + ∑ k : Fin 128, y (chan p k) := by
  simp only [Host.reduceAdd, Ideal.hostReduceAdd_def]
  rw [Ideal.hostReduceAdd_single hred (by decide)]
  refine congrArg (_ + ·) (Finset.sum_congr rfl fun k _ => ?_)
  exact congrArg y (funext fun a => Fin.ext (by
    match a with | ⟨0, _⟩ => rfl | ⟨1, _⟩ => rfl | ⟨2, _⟩ => rfl | ⟨3, _⟩ => rfl))

/-- A padded and cut [4, 128, 192, 256] array at channel k of pixel (b, h, w), inside the array. -/
theorem slicePad4_inside (oi oj : Nat)
    (hp4 : SArg.Pads (![0, 0, 1, 1] : Fin 4 → Nat) ![0, 0, 1, 1] ![0, 0, 0, 0] SPad4) (hu : 0 < S0.numel)
    (hs4 : SPad4.Slices ![0, 0, oi, oj] SArg) (z : FVec Ideal S0 .f32) (N : FVec Ideal SArg .f32)
    (b : Fin 4) (h : Fin 192) (w : Fin 256) (k : Fin 128) (h' : Fin 192) (w' : Fin 256)
    (eh : h.val + oi = h'.val + 1) (ew : w.val + oj = w'.val + 1) :
    extractStridedSlice SArg ![0, 0, oi, oj] (pad SPad4 ![0, 0, 1, 1] ![0, 0, 1, 1] ![0, 0, 0, 0] N z hp4 hu) hs4
        (chan (ix3 b h w) k) = N (chan (ix3 b h' w') k) := by
  refine (extractStridedSlice_apply ![0, 0, oi, oj] _ hs4 (chan (ix3 b h w) k)
    (ix4 b k (⟨h.val + oi, by omega⟩ : Fin 194) (⟨w.val + oj, by omega⟩ : Fin 258)) (fun a => by
      match a with
      | ⟨0, _⟩ => show b.val = 0 + b.val; omega
      | ⟨1, _⟩ => show k.val = 0 + k.val; omega
      | ⟨2, _⟩ => show h.val + oi = oi + h.val; omega
      | ⟨3, _⟩ => show w.val + oj = oj + w.val; omega)).trans ?_
  exact pad_apply_of_inside _ _ _ N z hp4 hu _ (chan (ix3 b h' w') k) (fun a => by
    match a with
    | ⟨0, _⟩ => show b.val = 0 + b.val * (0 + 1); omega
    | ⟨1, _⟩ => show k.val = 0 + k.val * (0 + 1); omega
    | ⟨2, _⟩ => show h.val + oi = 1 + h'.val * (0 + 1); omega
    | ⟨3, _⟩ => show w.val + oj = 1 + w'.val * (0 + 1); omega)

/-- The same, in the padding. -/
theorem slicePad4_outside (oi oj : Nat) (hoi : oi ≤ 2) (hoj : oj ≤ 2)
    (hp4 : SArg.Pads (![0, 0, 1, 1] : Fin 4 → Nat) ![0, 0, 1, 1] ![0, 0, 0, 0] SPad4) (hu : 0 < S0.numel)
    (hs4 : SPad4.Slices ![0, 0, oi, oj] SArg) (z : FVec Ideal S0 .f32) (N : FVec Ideal SArg .f32)
    (b : Fin 4) (h : Fin 192) (w : Fin 256) (k : Fin 128)
    (hout : h.val + oi = 0 ∨ 193 ≤ h.val + oi ∨ w.val + oj = 0 ∨ 257 ≤ w.val + oj) :
    extractStridedSlice SArg ![0, 0, oi, oj] (pad SPad4 ![0, 0, 1, 1] ![0, 0, 1, 1] ![0, 0, 0, 0] N z hp4 hu) hs4
        (chan (ix3 b h w) k) = z (Shape.Idx.first hu) := by
  refine (extractStridedSlice_apply ![0, 0, oi, oj] _ hs4 (chan (ix3 b h w) k)
    (ix4 b k (⟨h.val + oi, by omega⟩ : Fin 194) (⟨w.val + oj, by omega⟩ : Fin 258)) (fun a => by
      match a with
      | ⟨0, _⟩ => show b.val = 0 + b.val; omega
      | ⟨1, _⟩ => show k.val = 0 + k.val; omega
      | ⟨2, _⟩ => show h.val + oi = oi + h.val; omega
      | ⟨3, _⟩ => show w.val + oj = oj + w.val; omega)).trans ?_
  have hh : h.val < 192 := h.isLt
  have hw : w.val < 256 := w.isLt
  by_cases hrow : h.val + oi = 0 ∨ 193 ≤ h.val + oi
  · exact pad_apply_of_not_inside _ _ _ N z hp4 hu _ (2 : Fin 4) (by
      show ¬(1 ≤ h.val + oi ∧ (h.val + oi - 1) % (0 + 1) = 0 ∧ (h.val + oi - 1) / (0 + 1) < 192)
      omega)
  · exact pad_apply_of_not_inside _ _ _ N z hp4 hu _ (3 : Fin 4) (by
      show ¬(1 ≤ w.val + oj ∧ (w.val + oj - 1) % (0 + 1) = 0 ∧ (w.val + oj - 1) / (0 + 1) < 256)
      omega)

/-- One shifted window of the reference is the shifted view of the per-pixel map. -/
theorem refShift_eq (oi oj : Nat) (hoi : oi ≤ 2) (hoj : oj ≤ 2)
    (N0 N1 : FVec Ideal SArg .f32) (D : FVec Ideal SMap .f32)
    (hD : ∀ p : SMap.Idx, ∑ k : Fin 128, N0 (chan p k) * N1 (chan p k) = D p)
    (hp4 : SArg.Pads (![0, 0, 1, 1] : Fin 4 → Nat) ![0, 0, 1, 1] ![0, 0, 0, 0] SPad4) (hu : 0 < S0.numel)
    (hs4 : SPad4.Slices ![0, 0, oi, oj] SArg) (hred : SArg.ReducesTo [1] SMap)
    (hp3 : SMap.Pads (![0, 1, 1] : Fin 3 → Nat) ![0, 1, 1] ![0, 0, 0] SPad) (hs3 : SPad.Slices ![0, oi, oj] SMap)
    (z0 z1 z c0 : FVec Ideal S0 .f32) (hz0 : ∀ i, z0 i = 0) (hz1 : ∀ i, z1 i = 0) (hz : ∀ i, z i = 0) (hc0 : ∀ i, c0 i = 0) :
    Host.reduceAdd (F := Ideal)
        (mulf (extractStridedSlice SArg ![0, 0, oi, oj] (pad SPad4 ![0, 0, 1, 1] ![0, 0, 1, 1] ![0, 0, 0, 0] N0 z0 hp4 hu) hs4)
          (extractStridedSlice SArg ![0, 0, oi, oj] (pad SPad4 ![0, 0, 1, 1] ![0, 0, 1, 1] ![0, 0, 0, 0] N1 z1 hp4 hu) hs4))
        c0 hred hu
      = shiftD oi oj hp3 hu hs3 z D := by
  funext p
  obtain ⟨b, h, w, rfl⟩ : ∃ (b : Fin 4) (h : Fin 192) (w : Fin 256), p = ix3 b h w := ⟨p 0, p 1, p 2, eq_ix3 p⟩
  refine (hostChanSum_apply _ c0 hred hu (ix3 b h w)).trans ?_
  rw [hc0, zero_add]
  have hh : h.val < 192 := h.isLt
  have hw : w.val < 256 := w.isLt
  by_cases hin : (1 ≤ h.val + oi ∧ h.val + oi ≤ 192) ∧ (1 ≤ w.val + oj ∧ w.val + oj ≤ 256)
  · have eh : h.val + oi = (⟨h.val + oi - 1, by omega⟩ : Fin 192).val + 1 := by show h.val + oi = h.val + oi - 1 + 1; omega
    have ew : w.val + oj = (⟨w.val + oj - 1, by omega⟩ : Fin 256).val + 1 := by show w.val + oj = w.val + oj - 1 + 1; omega
    rw [shiftD_inside oi oj hp3 hu hs3 z D b h w _ _ eh ew, ← hD]
    refine Finset.sum_congr rfl fun k _ => ?_
    show extractStridedSlice SArg ![0, 0, oi, oj] (pad SPad4 ![0, 0, 1, 1] ![0, 0, 1, 1] ![0, 0, 0, 0] N0 z0 hp4 hu) hs4 (chan (ix3 b h w) k)
        * extractStridedSlice SArg ![0, 0, oi, oj] (pad SPad4 ![0, 0, 1, 1] ![0, 0, 1, 1] ![0, 0, 0, 0] N1 z1 hp4 hu) hs4 (chan (ix3 b h w) k) = _
    rw [slicePad4_inside oi oj hp4 hu hs4 z0 N0 b h w k _ _ eh ew, slicePad4_inside oi oj hp4 hu hs4 z1 N1 b h w k _ _ eh ew]
  · have hout : h.val + oi = 0 ∨ 193 ≤ h.val + oi ∨ w.val + oj = 0 ∨ 257 ≤ w.val + oj := by omega
    rw [shiftD_outside oi oj hoi hoj hp3 hu hs3 z D b h w hout, hz]
    refine Finset.sum_eq_zero fun k _ => ?_
    show extractStridedSlice SArg ![0, 0, oi, oj] (pad SPad4 ![0, 0, 1, 1] ![0, 0, 1, 1] ![0, 0, 0, 0] N0 z0 hp4 hu) hs4 (chan (ix3 b h w) k)
        * extractStridedSlice SArg ![0, 0, oi, oj] (pad SPad4 ![0, 0, 1, 1] ![0, 0, 1, 1] ![0, 0, 0, 0] N1 z1 hp4 hu) hs4 (chan (ix3 b h w) k) = 0
    rw [slicePad4_outside oi oj hoi hoj hp4 hu hs4 z0 N0 b h w k hout, hz0, zero_mul]

end Cert.NormDot

end
-- ==== Proof.RefValue.lean ====
/-
  The reference's result as the same function of the arguments as the kernel's.  The reference
  normalizes each argument over its channels (x / max (√Σ x²) ε), pads both normalized arrays with
  zeros, and for each of the nine offsets sums the product of the two shifted arrays over the
  channels; then it joins the nine maps and clamps at zero.  For real arguments each of the nine
  maps is the per-pixel map D padded with zeros and cut at the same offset (RefShift, with the law
  of Spec at every pixel), so the result is the common tail of those nine shifted views of D.
-/
import proofs.«120227_j22445499089557_2_alg».proof.Proof.Gen.ReferenceIdeal.Read
import proofs.«120227_j22445499089557_2_alg».proof.Proof.RefShift

set_option maxRecDepth 16384

noncomputable section

namespace Cert.ReferenceIdeal.RefValue

open Cert.ReferenceIdeal Cert.ReferenceIdeal.Gen Cert.ReferenceIdeal.Read Cert.NormDot
open Idealize.ShloMosaic Idealize.ShloMosaic.ValueIdx

/-- The reference's first normalized array is `nrm` of the first argument. -/
theorem v7_eq (x0 : FVec Ideal SArg .f32) : val_main_v7 (F := Ideal) x0 = nrm x0 := by
  funext i
  rw [val_main_v7_apply, val_main_v6_apply, val_main_v5_apply, val_main_v3_apply, val_main_v2_apply, val_main_v1_apply,
    val_main_v4_apply, val_main_cst_0_apply, val_main_cst_apply]
  simp only [val_main_v0_apply, Ideal.hostDivf_def, Ideal.maximumf_def, Ideal.hostUnary_sqrt_def, Ideal.mulf_def,
    Ideal.ofBits_def, Ideal.ofBits_zero_f32, zero_add]
  rfl

/-- The second likewise. -/
theorem v15_eq (x1 : FVec Ideal SArg .f32) : val_main_v15 (F := Ideal) x1 = nrm x1 := by
  funext i
  rw [val_main_v15_apply, val_main_v14_apply, val_main_v13_apply, val_main_v11_apply, val_main_v10_apply, val_main_v9_apply,
    val_main_v12_apply, val_main_cst_2_apply, val_main_cst_1_apply]
  simp only [val_main_v8_apply, Ideal.hostDivf_def, Ideal.maximumf_def, Ideal.hostUnary_sqrt_def, Ideal.mulf_def,
    Ideal.ofBits_def, Ideal.ofBits_zero_f32, zero_add]
  rfl

/-- Window (0, 0). -/
theorem v21_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 0, 0] SMap) :
    val_main_v21 (F := Ideal) x0 x1 = shiftD 0 0 hp3 hu hs3 zpad (Dmap x0 x1) := by
  unfold val_main_v21 val_main_v20 val_main_v18 val_main_v19 val_main_v16 val_main_v17
  rw [v7_eq, v15_eq]
  exact refShift_eq 0 0 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_0_0
    Facts₀.reducesTo_S4x128x192x256_S4x192x256_d1 hp3 hs3 _ _ zpad _
    (fun i => zpad_apply i) (fun i => zpad_apply i) zpad_apply (fun _ => Ideal.ofBits_zero_f32)

/-- Window (0, 1). -/
theorem v25_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 0, 1] SMap) :
    val_main_v25 (F := Ideal) x0 x1 = shiftD 0 1 hp3 hu hs3 zpad (Dmap x0 x1) := by
  unfold val_main_v25 val_main_v24 val_main_v22 val_main_v23 val_main_v16 val_main_v17
  rw [v7_eq, v15_eq]
  exact refShift_eq 0 1 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_0_1
    Facts₀.reducesTo_S4x128x192x256_S4x192x256_d1 hp3 hs3 _ _ zpad _
    (fun i => zpad_apply i) (fun i => zpad_apply i) zpad_apply (fun _ => Ideal.ofBits_zero_f32)

/-- Window (0, 2). -/
theorem v29_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 0, 2] SMap) :
    val_main_v29 (F := Ideal) x0 x1 = shiftD 0 2 hp3 hu hs3 zpad (Dmap x0 x1) := by
  unfold val_main_v29 val_main_v28 val_main_v26 val_main_v27 val_main_v16 val_main_v17
  rw [v7_eq, v15_eq]
  exact refShift_eq 0 2 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_0_2
    Facts₀.reducesTo_S4x128x192x256_S4x192x256_d1 hp3 hs3 _ _ zpad _
    (fun i => zpad_apply i) (fun i => zpad_apply i) zpad_apply (fun _ => Ideal.ofBits_zero_f32)

/-- Window (1, 0). -/
theorem v33_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 1, 0] SMap) :
    val_main_v33 (F := Ideal) x0 x1 = shiftD 1 0 hp3 hu hs3 zpad (Dmap x0 x1) := by
  unfold val_main_v33 val_main_v32 val_main_v30 val_main_v31 val_main_v16 val_main_v17
  rw [v7_eq, v15_eq]
  exact refShift_eq 1 0 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_1_0
    Facts₀.reducesTo_S4x128x192x256_S4x192x256_d1 hp3 hs3 _ _ zpad _
    (fun i => zpad_apply i) (fun i => zpad_apply i) zpad_apply (fun _ => Ideal.ofBits_zero_f32)

/-- Window (1, 1). -/
theorem v37_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 1, 1] SMap) :
    val_main_v37 (F := Ideal) x0 x1 = shiftD 1 1 hp3 hu hs3 zpad (Dmap x0 x1) := by
  unfold val_main_v37 val_main_v36 val_main_v34 val_main_v35 val_main_v16 val_main_v17
  rw [v7_eq, v15_eq]
  exact refShift_eq 1 1 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_1_1
    Facts₀.reducesTo_S4x128x192x256_S4x192x256_d1 hp3 hs3 _ _ zpad _
    (fun i => zpad_apply i) (fun i => zpad_apply i) zpad_apply (fun _ => Ideal.ofBits_zero_f32)

/-- Window (1, 2). -/
theorem v41_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 1, 2] SMap) :
    val_main_v41 (F := Ideal) x0 x1 = shiftD 1 2 hp3 hu hs3 zpad (Dmap x0 x1) := by
  unfold val_main_v41 val_main_v40 val_main_v38 val_main_v39 val_main_v16 val_main_v17
  rw [v7_eq, v15_eq]
  exact refShift_eq 1 2 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_1_2
    Facts₀.reducesTo_S4x128x192x256_S4x192x256_d1 hp3 hs3 _ _ zpad _
    (fun i => zpad_apply i) (fun i => zpad_apply i) zpad_apply (fun _ => Ideal.ofBits_zero_f32)

/-- Window (2, 0). -/
theorem v45_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 2, 0] SMap) :
    val_main_v45 (F := Ideal) x0 x1 = shiftD 2 0 hp3 hu hs3 zpad (Dmap x0 x1) := by
  unfold val_main_v45 val_main_v44 val_main_v42 val_main_v43 val_main_v16 val_main_v17
  rw [v7_eq, v15_eq]
  exact refShift_eq 2 0 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_2_0
    Facts₀.reducesTo_S4x128x192x256_S4x192x256_d1 hp3 hs3 _ _ zpad _
    (fun i => zpad_apply i) (fun i => zpad_apply i) zpad_apply (fun _ => Ideal.ofBits_zero_f32)

/-- Window (2, 1). -/
theorem v49_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 2, 1] SMap) :
    val_main_v49 (F := Ideal) x0 x1 = shiftD 2 1 hp3 hu hs3 zpad (Dmap x0 x1) := by
  unfold val_main_v49 val_main_v48 val_main_v46 val_main_v47 val_main_v16 val_main_v17
  rw [v7_eq, v15_eq]
  exact refShift_eq 2 1 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_2_1
    Facts₀.reducesTo_S4x128x192x256_S4x192x256_d1 hp3 hs3 _ _ zpad _
    (fun i => zpad_apply i) (fun i => zpad_apply i) zpad_apply (fun _ => Ideal.ofBits_zero_f32)

/-- Window (2, 2). -/
theorem v53_eq (x0 x1 : FVec Ideal SArg .f32) (h0 : ∀ i, ∃ r : ℝ, x0 i = (r : EReal)) (h1 : ∀ i, ∃ r : ℝ, x1 i = (r : EReal))
    (hp3 : SMap.Pads (![0, 1, 1] : Fin 3 → Nat) ![0, 1, 1] ![0, 0, 0] SPad) (hu : 0 < S0.numel) (hs3 : SPad.Slices ![0, 2, 2] SMap) :
    val_main_v53 (F := Ideal) x0 x1 = shiftD 2 2 hp3 hu hs3 zpad (Dmap x0 x1) := by
  unfold val_main_v53 val_main_v52 val_main_v50 val_main_v51 val_main_v16 val_main_v17
  rw [v7_eq, v15_eq]
  exact refShift_eq 2 2 (by decide) (by decide) (nrm x0) (nrm x1) (Dmap x0 x1) (sum_nrm_eq x0 x1 h0 h1)
    Facts₀.pads_S4x128x192x256_S4x128x194x258_000_000_110_110 hu Facts₀.slices_S4x128x194x258_S4x128x192x256_0_0_2_2
    Facts₀.reducesTo_S4x128x192x256_S4x192x256_d1 hp3 hs3 _ _ zpad _
    (fun i => zpad_apply i) (fun i => zpad_apply i) zpad_apply (fun _ => Ideal.ofBits_zero_f32)

/-- The reference's result: the common tail of the nine shifted views of the per-pixel map. -/
theorem v65_eq (x0 x1 : FVec Ideal SArg .f32) (h0 : ∀ i, ∃ r : ℝ, x0 i = (r : EReal)) (h1 : ∀ i, ∃ r : ℝ, x1 i = (r : EReal))
    (hb : SMap.BroadcastsInDim SOne (![0, 2, 3] : Fin 3 → Fin SOne.rank))
    (hc : Shape.Concatenates [SOne, SOne, SOne, SOne, SOne, SOne, SOne, SOne, SOne] SOut 1)
    (hb0 : S0.BroadcastsInDim SOut (![] : Fin 0 → Fin SOut.rank))
    (hp3 : SMap.Pads (![0, 1, 1] : Fin 3 → Nat) ![0, 1, 1] ![0, 0, 0] SPad) (hu : 0 < S0.numel)
    (hs00 : SPad.Slices ![0, 0, 0] SMap) (hs01 : SPad.Slices ![0, 0, 1] SMap) (hs02 : SPad.Slices ![0, 0, 2] SMap) (hs10 : SPad.Slices ![0, 1, 0] SMap) (hs11 : SPad.Slices ![0, 1, 1] SMap) (hs12 : SPad.Slices ![0, 1, 2] SMap) (hs20 : SPad.Slices ![0, 2, 0] SMap) (hs21 : SPad.Slices ![0, 2, 1] SMap) (hs22 : SPad.Slices ![0, 2, 2] SMap) :
    val_main_v65 (F := Ideal) x0 x1 = tail9 hb hc hb0
      (shiftD 0 0 hp3 hu hs00 zpad (Dmap x0 x1))
      (shiftD 0 1 hp3 hu hs01 zpad (Dmap x0 x1))
      (shiftD 0 2 hp3 hu hs02 zpad (Dmap x0 x1))
      (shiftD 1 0 hp3 hu hs10 zpad (Dmap x0 x1))
      (shiftD 1 1 hp3 hu hs11 zpad (Dmap x0 x1))
      (shiftD 1 2 hp3 hu hs12 zpad (Dmap x0 x1))
      (shiftD 2 0 hp3 hu hs20 zpad (Dmap x0 x1))
      (shiftD 2 1 hp3 hu hs21 zpad (Dmap x0 x1))
      (shiftD 2 2 hp3 hu hs22 zpad (Dmap x0 x1)) := by
  have e : val_main_v65 (F := Ideal) x0 x1 = tail9 hb hc hb0
      (val_main_v21 (F := Ideal) x0 x1) (val_main_v25 (F := Ideal) x0 x1) (val_main_v29 (F := Ideal) x0 x1) (val_main_v33 (F := Ideal) x0 x1) (val_main_v37 (F := Ideal) x0 x1) (val_main_v41 (F := Ideal) x0 x1) (val_main_v45 (F := Ideal) x0 x1) (val_main_v49 (F := Ideal) x0 x1) (val_main_v53 (F := Ideal) x0 x1) := rfl
  rw [e, v21_eq x0 x1 h0 h1 hp3 hu hs00,
    v25_eq x0 x1 h0 h1 hp3 hu hs01,
    v29_eq x0 x1 h0 h1 hp3 hu hs02,
    v33_eq x0 x1 h0 h1 hp3 hu hs10,
    v37_eq x0 x1 h0 h1 hp3 hu hs11,
    v41_eq x0 x1 h0 h1 hp3 hu hs12,
    v45_eq x0 x1 h0 h1 hp3 hu hs20,
    v49_eq x0 x1 h0 h1 hp3 hu hs21,
    v53_eq x0 x1 h0 h1 hp3 hu hs22]

end Cert.ReferenceIdeal.RefValue

end
-- ==== Proof.Finite.lean ====
/-
  The precondition read back: when the predicate "every entry of both argument arrays has
  absolute value below +∞" is all ones at the ideal instance, every entry of both arrays is a
  real number.  The predicate is the conjunction of two reductions by `and` over all axes; a
  reduction that is 1 met only 1s, and |x| < +∞ on the extended reals excludes both infinities.
-/
import proofs.«120227_j22445499089557_2_alg».proof.Pre_finite_inputs
import Idealize.ShloMosaic.PureOps.Ideal
import Idealize.ShloMosaic.PureOps.Ideal.Laws
import Idealize.ShloMosaic.Lib.ReduceAll
import Idealize.ShloMosaic.Lib.ValueIdx

namespace Cert.FiniteInputs

open Idealize.ShloMosaic Cert.Pre_finite_inputs

instance : Subsingleton S_.Idx := ⟨fun a b => funext fun d => d.elim0⟩

/-- An extended real whose absolute value is below the value of the +∞ pattern is a real. -/
theorem real_of_abs_lt_inf (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  rw [Ideal.cmpf_def, Ideal.hostAbsf_def, Ideal.absf_def, Ideal.ofBits_def, htop] at h
  induction x using EReal.rec with
  | bot => exact absurd h (by simp [Ideal.cmp])
  | coe r => exact ⟨r, rfl⟩
  | top => exact absurd h (by simp [Ideal.cmp])

/-- Under the precondition every entry of both argument arrays is a real number. -/
theorem real_of_pre [Facts] (x0 x1 : FVec Ideal S4x128x192x256 .f32)
    (h : fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨ha, hb⟩ := IntOp.andi_eq_one.1 h0
  refine ⟨fun i => real_of_abs_lt_inf _ ?_, fun i => real_of_abs_lt_inf _ ?_⟩
  · exact Host.reduce_andi_all _ _ _ _ _ ha i
  · exact Host.reduce_andi_all _ _ _ _ _ hb i

end Cert.FiniteInputs
-- ==== Proof.lean ====
/-
  The certificate.  The kernel computes, in one pipelined pass over a 4 × 6 grid, the per-pixel map

      D(b, h, w) = (Σ_c x(b,c,h,w) · y(b,c,h,w)) / (max (√Σ_c x²) ε · max (√Σ_c y²) ε)

  of its two [4, 128, 192, 256] arguments, then pads D with zeros, takes the nine windows at
  offsets (oi, oj) ∈ {0, 1, 2}², stacks them and clamps at zero.  The reference normalizes each
  argument over its channels, pads the normalized arrays with zeros, and for each offset sums the
  product of the shifted arrays over the channels, then stacks and clamps.  For finite arguments the
  two agree on the extended reals: inside the array the channel sum of (x / nx) · (y / ny) is
  (Σ x · y) / (nx · ny) because nx, ny are positive reals (distributivity in ℝ; this is where the
  precondition is used), and in the padding both sides are zero.

  The three frames: each kernel program is one region followed by host lines writing buffers of
  their own (Proof/KernelFrame.lean, Proof/KernelIdealFrame.lean: the body run once, the launch
  and the lines after it by the pipeline library); the reference is a straight line of host
  operations, whose generated run is imported.  The idealization rewrote nothing, so `preserves` is
  trivial.
-/
import proofs.«120227_j22445499089557_2_alg».proof.Defs
import proofs.«120227_j22445499089557_2_alg».proof.Proof.Gen.Kernel
import proofs.«120227_j22445499089557_2_alg».proof.Proof.Gen.KernelIdeal
import proofs.«120227_j22445499089557_2_alg».proof.Proof.Gen.ReferenceIdeal
import proofs.«120227_j22445499089557_2_alg».proof.Proof.Gen.Pre_finite_inputs
import proofs.«120227_j22445499089557_2_alg».proof.Proof.Gen.ReferenceIdeal.Run
import proofs.«120227_j22445499089557_2_alg».proof.Proof.Gen.ReferenceIdeal.Read
import proofs.«120227_j22445499089557_2_alg».proof.Proof.KernelFrame
import proofs.«120227_j22445499089557_2_alg».proof.Proof.KernelIdealFrame
import proofs.«120227_j22445499089557_2_alg».proof.Proof.KernelTail
import proofs.«120227_j22445499089557_2_alg».proof.Proof.RefValue
import proofs.«120227_j22445499089557_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the common tail of the nine shifted views of the per-pixel map of the arguments. -/
theorem algebraic : Cert.algebraic_KernelIdeal_ReferenceIdeal := by
  intro m ρ m' ρ' hpre hagree
  refine ⟨fun c => Cert.KernelIdeal.HandValue.tailOf
      (Cert.NormDot.Dmap (m ((c : Thread Cert.KernelIdeal.nD Cert.KernelIdeal.τ).loc Cert.KernelIdeal.main_arg0))
        (m ((c : Thread Cert.KernelIdeal.nD Cert.KernelIdeal.τ).loc Cert.KernelIdeal.main_arg1))),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq, (hagree c).1, (hagree c).2]
  obtain ⟨h0, h1⟩ := Cert.FiniteInputs.real_of_pre _ _ (hpre c)
  exact Cert.ReferenceIdeal.RefValue.v65_eq _ _ h0 h1
    Cert.KernelIdeal.Facts₀.bcast_S4x192x256_S4x1x192x256_0_2_3
    Cert.KernelIdeal.Facts₀.concatenates_S4x1x192x256_S4x1x192x256_S4x1x192x256_S4x1x192x256_S4x1x192x256_S4x1x192x256_S4x1x192x256_S4x1x192x256_S4x1x192x256_S4x9x192x256_d1
    Cert.KernelIdeal.Facts₀.bcast_S_S4x9x192x256
    Cert.KernelIdeal.Facts₀.pads_S4x192x256_S4x194x258_000_110_110 Cert.KernelIdeal.Facts₀.h_S_
    Cert.KernelIdeal.Facts₀.slices_S4x194x258_S4x192x256_0_0_0
    Cert.KernelIdeal.Facts₀.slices_S4x194x258_S4x192x256_0_0_1
    Cert.KernelIdeal.Facts₀.slices_S4x194x258_S4x192x256_0_0_2
    Cert.KernelIdeal.Facts₀.slices_S4x194x258_S4x192x256_0_1_0
    Cert.KernelIdeal.Facts₀.slices_S4x194x258_S4x192x256_0_1_1
    Cert.KernelIdeal.Facts₀.slices_S4x194x258_S4x192x256_0_1_2
    Cert.KernelIdeal.Facts₀.slices_S4x194x258_S4x192x256_0_2_0
    Cert.KernelIdeal.Facts₀.slices_S4x194x258_S4x192x256_0_2_1
    Cert.KernelIdeal.Facts₀.slices_S4x194x258_S4x192x256_0_2_2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
